-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x100 : Shape := ⟨2, ![128, 100]⟩
abbrev S100 : Shape := ⟨1, ![100]⟩
abbrev S100x100 : Shape := ⟨2, ![100, 100]⟩
abbrev S100x1 : Shape := ⟨2, ![100, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x100 : S_.BroadcastsInDim S128x100 (![] : Fin 0 → Fin S128x100.rank)
  reducesTo_S128x100_S_d0_1 : S128x100.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_
  bcast_S_S100x1 : S_.BroadcastsInDim S100x1 (![] : Fin 0 → Fin S100x1.rank)
  reducesTo_S100x1_S_d0_1 : S100x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S100 .f32) (main_arg7 : FVec F S100x1 .f32) (main_arg8 : FVec F S1 .f32) (main_v13 : IVec S_ 1) (main_v16 : IVec S100x100 1) : IVec S_ 1 :=
  let main_c_5 : IVec S_ 1 := constantI S_ 1 1#1
  let main_v17 : IVec S_ 1 := (fun x v => Host.reduce IntOp.andi x v reducesTo_S100x100_S_d0_1 h_S_) main_v16 main_c_5
  let main_v18 : IVec S_ 1 := andi main_v13 main_v17
  let main_v19 : FVec F S100 .f32 := Host.absf main_arg6
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x1 .f32 := Host.absf main_arg7
  let main_cst_8 : FVec F S_ .f32 := constant S_ .f32 0x7F800000#32
  let main_v25 : FVec F S100x1 .f32 := broadcastInDim S100x1 ![] bcast_S_S100x1 main_cst_8
  let main_v26 : IVec S100x1 1 := cmpf .olt main_v24 main_v25
  let main_c_9 : IVec S_ 1 := constantI S_ 1 1#1
  let main_v27 : IVec S_ 1 := (fun x v => Host.reduce IntOp.andi x v reducesTo_S100x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x100 .f32) (main_arg4 : FVec F S100 .f32) (main_arg5 : FVec F S100x100 .f32) (main_arg6 : FVec F S100 .f32) (main_arg7 : FVec F S100x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x100 .f32 := Host.absf main_arg3
  let main_cst_0 : FVec F S_ .f32 := constant S_ .f32 0x7F800000#32
  let main_v5 : FVec F S128x100 .f32 := broadcastInDim S128x100 ![] bcast_S_S128x100 main_cst_0
  let main_v6 : IVec S128x100 1 := cmpf .olt main_v4 main_v5
  let main_c_1 : IVec S_ 1 := constantI S_ 1 1#1
  let main_v7 : IVec S_ 1 := (fun x v => Host.reduce IntOp.andi x v reducesTo_S128x100_S_d0_1 h_S_) main_v6 main_c_1
  let main_v8 : IVec S_ 1 := andi main_v3 main_v7
  let main_v9 : FVec F S100 .f32 := Host.absf main_arg4
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x100 .f32 := Host.absf main_arg5
  let main_cst_4 : FVec F S_ .f32 := constant S_ .f32 0x7F800000#32
  let main_v15 : FVec F S100x100 .f32 := broadcastInDim S100x100 ![] bcast_S_S100x100 main_cst_4
  let main_v16 : IVec S100x100 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x100 : Shape := ⟨2, ![128, 100]⟩
abbrev S100 : Shape := ⟨1, ![100]⟩
abbrev S100x100 : Shape := ⟨2, ![100, 100]⟩
abbrev S100x1 : Shape := ⟨2, ![100, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x100 : Shape := ⟨2, ![50000, 100]⟩
abbrev S5000x128 : Shape := ⟨2, ![5000, 128]⟩
abbrev S5000x100 : Shape := ⟨2, ![5000, 100]⟩
abbrev S850000x100 : Shape := ⟨2, ![850000, 100]⟩
abbrev S1x100 : Shape := ⟨2, ![1, 100]⟩
abbrev S64x100 : Shape := ⟨2, ![64, 100]⟩
abbrev S50000x1 : Shape := ⟨2, ![50000, 1]⟩
abbrev S64 : Shape := ⟨1, ![64]⟩
abbrev S64x1 : Shape := ⟨2, ![64, 1]⟩
abbrev S1x1 : Shape := ⟨2, ![1, 1]⟩

abbrev nBuf : Space → Nat
  | .hbm => 111
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x100, .f32⟩
  | .hbm, ⟨4, _⟩ => ⟨S100, .f32⟩
  | .hbm, ⟨5, _⟩ => ⟨S100x100, .f32⟩
  | .hbm, ⟨6, _⟩ => ⟨S100, .f32⟩
  | .hbm, ⟨7, _⟩ => ⟨S100x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S50000x100, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x100, .f32⟩
  | .hbm, ⟨62, _⟩ => ⟨S850000x1, .f32⟩
  | .hbm, ⟨63, _⟩ => ⟨S850000x100, .f32⟩
  | .hbm, ⟨64, _⟩ => ⟨S850000x100, .f32⟩
  | .hbm, ⟨65, _⟩ => ⟨S_, .f32⟩
  | .hbm, ⟨66, _⟩ => ⟨S50000x100, .f32⟩
  | .hbm, ⟨67, _⟩ => ⟨S850000x1, .i32⟩
  | .hbm, ⟨68, _⟩ => ⟨S50000x100, .f32⟩
  | .hbm, ⟨69, _⟩ => ⟨S1x100, .f32⟩
  | .hbm, ⟨70, _⟩ => ⟨S50000x100, .f32⟩
  | .hbm, ⟨71, _⟩ => ⟨S50000x100, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x100, .f32⟩
  | .hbm, ⟨81, _⟩ => ⟨S850000x1, .f32⟩
  | .hbm, ⟨82, _⟩ => ⟨S850000x100, .f32⟩
  | .hbm, ⟨83, _⟩ => ⟨S850000x100, .f32⟩
  | .hbm, ⟨84, _⟩ => ⟨S_, .f32⟩
  | .hbm, ⟨85, _⟩ => ⟨S50000x100, .f32⟩
  | .hbm, ⟨86, _⟩ => ⟨S850000x1, .i32⟩
  | .hbm, ⟨87, _⟩ => ⟨S50000x100, .f32⟩
  | .hbm, ⟨88, _⟩ => ⟨S1x100, .f32⟩
  | .hbm, ⟨89, _⟩ => ⟨S50000x100, .f32⟩
  | .hbm, ⟨90, _⟩ => ⟨S50000x100, .f32⟩
  | .hbm, ⟨91, _⟩ => ⟨S_, .f32⟩
  | .hbm, ⟨92, _⟩ => ⟨S64x100, .f32⟩
  | .hbm, ⟨93, _⟩ => ⟨S50000x1, .i32⟩
  | .hbm, ⟨94, _⟩ => ⟨S64x100, .f32⟩
  | .hbm, ⟨95, _⟩ => ⟨S_, .f32⟩
  | .hbm, ⟨96, _⟩ => ⟨S50000, .f32⟩
  | .hbm, ⟨97, _⟩ => ⟨S_, .f32⟩
  | .hbm, ⟨98, _⟩ => ⟨S64, .f32⟩
  | .hbm, ⟨99, _⟩ => ⟨S50000x1, .i32⟩
  | .hbm, ⟨100, _⟩ => ⟨S64, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S64x1, .f32⟩
  | .hbm, ⟨105, _⟩ => ⟨S64x100, .f32⟩
  | .hbm, ⟨106, _⟩ => ⟨S64x100, .f32⟩
  | .hbm, ⟨107, _⟩ => ⟨S64x1, .f32⟩
  | .hbm, ⟨108, _⟩ => ⟨S1x1, .f32⟩
  | .hbm, ⟨109, _⟩ => ⟨S64x1, .f32⟩
  | .hbm, ⟨110, _⟩ => ⟨S64x1, .f32⟩
  | .local _ .vmem, ⟨0, _⟩ => ⟨S5000x128, .f32⟩
  | .local _ .vmem, ⟨1, _⟩ => ⟨S5000x128, .f32⟩
  | .local _ .vmem, ⟨2, _⟩ => ⟨S128x100, .f32⟩
  | .local _ .vmem, ⟨3, _⟩ => ⟨S5000x100, .f32⟩
  | .local _ .vmem, ⟨4, _⟩ => ⟨S5000x100, .f32⟩
  | .local _ .vmem, ⟨5, _⟩ => ⟨S5000x100, .f32⟩
  | .local _ .vmem, ⟨6, _⟩ => ⟨S5000x100, .f32⟩
  | .local _ .vmem, ⟨7, _⟩ => ⟨S1x100, .f32⟩
  | .local _ .vmem, ⟨8, _⟩ => ⟨S5000x100, .f32⟩
  | .local _ .vmem, ⟨9, _⟩ => ⟨S5000x100, .f32⟩
  | .local _ .vmem, ⟨10, _⟩ => ⟨S5000x100, .f32⟩
  | .local _ .vmem, ⟨11, _⟩ => ⟨S5000x100, .f32⟩
  | .local _ .vmem, ⟨12, _⟩ => ⟨S100x100, .f32⟩
  | .local _ .vmem, ⟨13, _⟩ => ⟨S5000x100, .f32⟩
  | .local _ .vmem, ⟨14, _⟩ => ⟨S5000x100, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x100 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S100x100 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x100 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x100_S128x100_0_0 : ∀ a, (![0, 0] : Fin 2 → Nat) a + S128x100.size a ≤ S128x100.size a
  h_S128x100 : 0 < S128x100.numel
  inb_S5000x100_S5000x100_0_0 : ∀ a, (![0, 0] : Fin 2 → Nat) a + S5000x100.size a ≤ S5000x100.size a
  h_S5000x100 : 0 < S5000x100.numel
  bcast_S850000x1_S850000x100_0_1 : S850000x1.BroadcastsInDim S850000x100 (![0, 1] : Fin 2 → Fin S850000x100.rank)
  bcast_S_S50000x100 : S_.BroadcastsInDim S50000x100 (![] : Fin 0 → Fin S50000x100.rank)
  shapeCasts_S100_S1x100 : S100.ShapeCasts S1x100
  shapeCasts_S5000x100_S5000x100 : S5000x100.ShapeCasts S5000x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S5000x100 : S1x100.Broadcasts S5000x100
  inb_S100x100_S100x100_0_0 : ∀ a, (![0, 0] : Fin 2 → Nat) a + S100x100.size a ≤ S100x100.size a
  h_S100x100 : 0 < S100x100.numel
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S_S64x100 : S_.BroadcastsInDim S64x100 (![] : Fin 0 → Fin S64x100.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x100_0_1 : S64x1.BroadcastsInDim S64x100 (![0, 1] : Fin 2 → Fin S64x100.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x100_S5000x100_1_0_0_1_n_n_wf : DotDims.WF S5000x128 S128x100 S5000x100 [1] [0] [0] [1] [] []
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  dot_S5000x100_S100x100_S5000x100_1_0_0_1_n_n_wf : DotDims.WF S5000x100 S100x100 S5000x100 [1] [0] [0] [1] [] []
  scatter_S64x100_S50000x1_S50000x100_1_0_0_1_wf : ScatterDims.WF S64x100 S50000x1 S50000x100 [1] [0] [0] 1
  scatter_S64_S50000x1_S50000_n_0_0_1_wf : ScatterDims.WF S64 S50000x1 S50000 [] [0] [0] 1
  dot_S64x100_S100x1_S64x1_1_0_0_1_n_n_wf : DotDims.WF S64x100 S100x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x100.size a ≤ S128x100.size a
  hwx0_1 : ∀ i : grid0.Coords, EltTy.bits .f32 = 32 ∨ (Rect.block (s := S128x100) S128x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x100.size a ≤ S50000x100.size a
  hwx0_2 : ∀ i : grid0.Coords, EltTy.bits .f32 = 32 ∨ (Rect.block (s := S50000x100) S5000x100.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x100.size a ≤ S50000x100.size a
  hwx1_0 : ∀ i : grid1.Coords, EltTy.bits .f32 = 32 ∨ (Rect.block (s := S50000x100) S5000x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x100.size a ≤ S1x100.size a
  hwx1_1 : ∀ i : grid1.Coords, EltTy.bits .f32 = 32 ∨ (Rect.block (s := S1x100) S1x100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x100.size a ≤ S50000x100.size a
  hwx1_2 : ∀ i : grid1.Coords, EltTy.bits .f32 = 32 ∨ (Rect.block (s := S50000x100) S5000x100.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x100.size a ≤ S50000x100.size a
  hwx2_0 : ∀ i : grid2.Coords, EltTy.bits .f32 = 32 ∨ (Rect.block (s := S50000x100) S5000x100.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S100x100.size a ≤ S100x100.size a
  hwx2_1 : ∀ i : grid2.Coords, EltTy.bits .f32 = 32 ∨ (Rect.block (s := S100x100) S100x100.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x100.size a ≤ S50000x100.size a
  hwx2_2 : ∀ i : grid2.Coords, EltTy.bits .f32 = 32 ∨ (Rect.block (s := S50000x100) S5000x100.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x100_S5000x100_1_0_0_1_n_n : DotDims S5000x128 S128x100 S5000x100 where
  lhsContracting := [1]
  rhsContracting := [0]
  lhsNonContracting := [0]
  rhsNonContracting := [1]
  lhsBatch := []
  rhsBatch := []
  wf := dot_S5000x128_S128x100_S5000x100_1_0_0_1_n_n_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf
def dot_S5000x100_S100x100_S5000x100_1_0_0_1_n_n : DotDims S5000x100 S100x100 S5000x100 where
  lhsContracting := [1]
  rhsContracting := [0]
  lhsNonContracting := [0]
  rhsNonContracting := [1]
  lhsBatch := []
  rhsBatch := []
  wf := dot_S5000x100_S100x100_S5000x100_1_0_0_1_n_n_wf
def scatter_S64x100_S50000x1_S50000x100_1_0_0_1 : ScatterDims S64x100 S50000x1 S50000x100 where
  updateWindowDims := [1]
  insertedWindowDims := [0]
  scatterDimsToOperandDims := [0]
  indexVectorDim := 1
  wf := scatter_S64x100_S50000x1_S50000x100_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x100_S100x1_S64x1_1_0_0_1_n_n : DotDims S64x100 S100x1 S64x1 where
  lhsContracting := [1]
  rhsContracting := [0]
  lhsNonContracting := [0]
  rhsNonContracting := [1]
  lhsBatch := []
  rhsBatch := []
  wf := dot_S64x100_S100x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x100.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x100.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S100x100.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x100.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x100 : Shape := ⟨2, ![128, 100]⟩
abbrev S100 : Shape := ⟨1, ![100]⟩
abbrev S100x100 : Shape := ⟨2, ![100, 100]⟩
abbrev S100x1 : Shape := ⟨2, ![100, 1]⟩
abbrev S1 : Shape := ⟨1, ![1]⟩
abbrev S1x800000 : Shape := ⟨2, ![1, 800000]⟩
abbrev S800000 : Shape := ⟨1, ![800000]⟩
abbrev S50000x100 : Shape := ⟨2, ![50000, 100]⟩
abbrev S850000 : Shape := ⟨1, ![850000]⟩
abbrev S_ : Shape := ⟨0, ![]⟩
abbrev S850000x1 : Shape := ⟨2, ![850000, 1]⟩
abbrev S850000x100 : Shape := ⟨2, ![850000, 100]⟩
abbrev S1x100 : Shape := ⟨2, ![1, 100]⟩
abbrev S64x100 : Shape := ⟨2, ![64, 100]⟩
abbrev S50000x1 : Shape := ⟨2, ![50000, 1]⟩
abbrev S64 : Shape := ⟨1, ![64]⟩
abbrev S64x1 : Shape := ⟨2, ![64, 1]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x100, .f32⟩
  | 4 => ⟨S100, .f32⟩
  | 5 => ⟨S100x100, .f32⟩
  | 6 => ⟨S100, .f32⟩
  | 7 => ⟨S100x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S50000x100, .f32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x100, .f32⟩
  | 62 => ⟨S850000x1, .f32⟩
  | 63 => ⟨S850000x100, .f32⟩
  | 64 => ⟨S850000x100, .f32⟩
  | 65 => ⟨S_, .f32⟩
  | 66 => ⟨S50000x100, .f32⟩
  | 67 => ⟨S850000x1, .i32⟩
  | 68 => ⟨S50000x100, .f32⟩
  | 69 => ⟨S1x100, .f32⟩
  | 70 => ⟨S50000x100, .f32⟩
  | 71 => ⟨S50000x100, .f32⟩
  | 72 => ⟨S50000x100, .f32⟩
  | 73 => ⟨S50000x100, .f32⟩
  | 74 => ⟨S50000, .i32⟩
  | 75 => ⟨S850000, .i32⟩
  | 76 => ⟨S850000, .i32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S_, .f32⟩
  | 87 => ⟨S50000, .f32⟩
  | 88 => ⟨S50000, .f32⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000, .f32⟩
  | 112 => ⟨S850000, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x100, .f32⟩
  | 122 => ⟨S850000x1, .f32⟩
  | 123 => ⟨S850000x100, .f32⟩
  | 124 => ⟨S850000x100, .f32⟩
  | 125 => ⟨S_, .f32⟩
  | 126 => ⟨S50000x100, .f32⟩
  | 127 => ⟨S850000x1, .i32⟩
  | _ => ⟨S50000x128, .f32⟩

abbrev hbmTy0_1 (i : Nat) : BufTy := match i % 128 with
  | 0 => ⟨S50000x100, .f32⟩
  | 1 => ⟨S1x100, .f32⟩
  | 2 => ⟨S50000x100, .f32⟩
  | 3 => ⟨S50000x100, .f32⟩
  | 4 => ⟨S_, .f32⟩
  | 5 => ⟨S64x100, .f32⟩
  | 6 => ⟨S50000x1, .i32⟩
  | 7 => ⟨S64x100, .f32⟩
  | 8 => ⟨S_, .f32⟩
  | 9 => ⟨S50000, .f32⟩
  | 10 => ⟨S_, .f32⟩
  | 11 => ⟨S64, .f32⟩
  | 12 => ⟨S50000x1, .i32⟩
  | 13 => ⟨S64, .f32⟩
  | 14 => ⟨S_, .f32⟩
  | 15 => ⟨S64, .f32⟩
  | 16 => ⟨S64, .f32⟩
  | 17 => ⟨S64x1, .f32⟩
  | 18 => ⟨S64x100, .f32⟩
  | 19 => ⟨S64x100, .f32⟩
  | 20 => ⟨S64x1, .f32⟩
  | 21 => ⟨S1x1, .f32⟩
  | 22 => ⟨S64x1, .f32⟩
  | 23 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_call1_v0 : Ref sig .tc := ⟨.hbm, 91, rfl⟩
abbrev main_call1_v1 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_c_16 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_17 : Ref sig .tc := ⟨.hbm, 103, rfl⟩
abbrev main_v71 : Ref sig .tc := ⟨.hbm, 104, rfl⟩
abbrev main_v72 : Ref sig .tc := ⟨.hbm, 105, rfl⟩
abbrev main_c_18 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_19 : Ref sig .tc := ⟨.hbm, 113, rfl⟩
abbrev main_v79 : Ref sig .tc := ⟨.hbm, 114, rfl⟩
abbrev main_v80 : Ref sig .tc := ⟨.hbm, 115, rfl⟩
abbrev main_c_20 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_21 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_22 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_23 : Ref sig .tc := ⟨.hbm, 136, rfl⟩
abbrev main_v98 : Ref sig .tc := ⟨.hbm, 137, rfl⟩
abbrev main_cst_24 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_25 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x100_0_1 : S850000x1.BroadcastsInDim S850000x100 (![0, 1] : Fin 2 → Fin S850000x100.rank)
  bcast_S_S50000x100 : S_.BroadcastsInDim S50000x100 (![] : Fin 0 → Fin S50000x100.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S_S64x100 : S_.BroadcastsInDim S64x100 (![] : Fin 0 → Fin S64x100.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x100_0_1 : S64x1.BroadcastsInDim S64x100 (![0, 1] : Fin 2 → Fin S64x100.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S50000x128_S128x100_S50000x100_1_0_0_1_n_n_wf : DotDims.WF S50000x128 S128x100 S50000x100 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  dot_S50000x100_S100x100_S50000x100_1_0_0_1_n_n_wf : DotDims.WF S50000x100 S100x100 S50000x100 [1] [0] [0] [1] [] []
  scatter_S64x100_S50000x1_S50000x100_1_0_0_1_wf : ScatterDims.WF S64x100 S50000x1 S50000x100 [1] [0] [0] 1
  scatter_S64_S50000x1_S50000_n_0_0_1_wf : ScatterDims.WF S64 S50000x1 S50000 [] [0] [0] 1
  dot_S64x100_S100x1_S64x1_1_0_0_1_n_n_wf : DotDims.WF S64x100 S100x1 S64x1 [1] [0] [0] [1] [] []

variable [Facts₀]

def dot_S50000x128_S128x100_S50000x100_1_0_0_1_n_n : DotDims S50000x128 S128x100 S50000x100 where
  lhsContracting := [1]
  rhsContracting := [0]
  lhsNonContracting := [0]
  rhsNonContracting := [1]
  lhsBatch := []
  rhsBatch := []
  wf := dot_S50000x128_S128x100_S50000x100_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf
def dot_S50000x100_S100x100_S50000x100_1_0_0_1_n_n : DotDims S50000x100 S100x100 S50000x100 where
  lhsContracting := [1]
  rhsContracting := [0]
  lhsNonContracting := [0]
  rhsNonContracting := [1]
  lhsBatch := []
  rhsBatch := []
  wf := dot_S50000x100_S100x100_S50000x100_1_0_0_1_n_n_wf
def scatter_S64x100_S50000x1_S50000x100_1_0_0_1 : ScatterDims S64x100 S50000x1 S50000x100 where
  updateWindowDims := [1]
  insertedWindowDims := [0]
  scatterDimsToOperandDims := [0]
  indexVectorDim := 1
  wf := scatter_S64x100_S50000x1_S50000x100_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x100_S100x1_S64x1_1_0_0_1_n_n : DotDims S64x100 S100x1 S64x1 where
  lhsContracting := [1]
  rhsContracting := [0]
  lhsNonContracting := [0]
  rhsNonContracting := [1]
  lhsBatch := []
  rhsBatch := []
  wf := dot_S64x100_S100x1_S64x1_1_0_0_1_n_n_wf

class Facts : Prop extends Facts₀ where

variable [Facts]
-- ==== Proof.KernelRun.lean ====
/-
  The idealized kernel's run with its result named.

  @main is a chain of eight segments: three stretches of host operations (the edge lists with self loops, the
  degrees, the symmetric normalisation), the first projection x · W1 as a row-tiled pipeline, the first
  aggregation on the host, the bias and tanh as a second pipeline, the second projection as a third pipeline,
  and the host tail (second aggregation, bias, mean pooling per graph, the linear head). The buffer contents at
  each boundary are a fold through those segments from the launch memory; the last boundary's contents are
  `W8`. Every weakly fair execution terminates, nothing faulting, with every unscoped buffer at `W8`: so the
  result buffer holds `W8` read at it, and the nine arguments are as launched.
-/
import proofs.«152321_j62208306315756_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents read at it and the argument arrays as launched. -/
theorem run : θ_run defs (onTc (τ := τ) (main (F := F))) ⟨m, fun _ => 0, ρ⟩ (fun r => ∀ c : Dev nD,
      r.2.mem ((c.tc : Thread nD τ).loc main_v80) = W8 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v80 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Result

end
-- ==== Proof.Carry.lean ====
/-
  Which buffers each segment of the kernel's @main leaves alone.

  The contents at a boundary are a fold through the segments from the launch memory. A stretch of host operations
  changes only the buffers its operations write; a pipeline changes only its own arrays. So:
  * the edge lists with self loops (sources and destinations) and the per-edge normalisation, all computed before
    the first pipeline, are still what they were when the second aggregation reads them after the third pipeline;
  * each argument array, read by a later segment, is still the launch memory's.
-/
import proofs.«152321_j62208306315756_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## What was computed before the first pipeline and is read again later -/

/-- The sources with self loops, as the first aggregation finds them, are as computed before the first pipeline. -/
theorem src_4 : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

/-- The destinations with self loops, likewise. -/
theorem dst_4 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- The per-edge normalisation, likewise. -/
theorem norm_4 : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

/-- The sources with self loops, as the second aggregation finds them after the third pipeline, are as computed before the first. -/
theorem src_7 : W7 m ρ c (Proc.devRef .tc main_v5) = W3 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v5) := W4_of_ne m ρ c main_v5 (by decide)

/-- The destinations with self loops, likewise. -/
theorem dst_7 : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v6) := W4_of_ne m ρ c main_v6 (by decide)

/-- The per-edge normalisation, likewise. -/
theorem norm_7 : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := StableHlo.after_of_forall_not_mem (b := Proc.devRef .tc main_v31) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v31) := W4_of_ne m ρ c main_v31 (by decide)

/-! ## The argument arrays where later segments read them -/

/-- The node features, as the first pipeline finds them, are the launch memory's. -/
theorem x_3 : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg0) := StableHlo.after_of_forall_not_mem (b := Proc.devRef .tc main_arg0) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

/-- The first weight matrix, as the first pipeline finds it. -/
theorem w1_3 : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg3) := StableHlo.after_of_forall_not_mem (b := Proc.devRef .tc main_arg3) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

/-- The edge index, read before the first pipeline. -/
theorem edges_0 : W0 m ρ c (Proc.devRef .tc main_arg1) = m ((c : Thread nD τ).loc main_arg1) :=
  rfl

/-- The first bias, read between the first and the second pipeline. -/
theorem b1_4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg4) := StableHlo.after_of_forall_not_mem (b := Proc.devRef .tc main_arg4) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

/-- The second weight matrix, as the third pipeline finds it. -/
theorem w2_6 : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg5) := StableHlo.after_of_forall_not_mem (b := Proc.devRef .tc main_arg5) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

/-- The graph index of each node, read by the host tail. -/
theorem batch_7 : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg2) := StableHlo.after_of_forall_not_mem (b := Proc.devRef .tc main_arg2) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl

/-- The second bias, read by the host tail. -/
theorem b2_7 : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg6) := StableHlo.after_of_forall_not_mem (b := Proc.devRef .tc main_arg6) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl

/-- The head's weight, read by the host tail. -/
theorem wlin_7 : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg7) := StableHlo.after_of_forall_not_mem (b := Proc.devRef .tc main_arg7) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg7) := StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl

/-- The head's bias, read by the host tail. -/
theorem blin_7 : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg8) := StableHlo.after_of_forall_not_mem (b := Proc.devRef .tc main_arg8) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl

end Cert.KernelIdeal.Carry

end
-- ==== Proof.Prefix.lean ====
/-
  What the host computes before the first pipeline, as the reference's stages.

  Both programs begin with the same host operations on the edge index alone: the source and destination lists
  with one self loop per node appended; the degree of each node (a scatter-add of ones over the destinations);
  its inverse square root where the degree is positive and zero elsewhere; and the per-edge normalisation, the
  product of that quantity gathered at the edge's source and at its destination. The kernel's program computes
  them once, the reference once per layer: the same operations with the same literals on the same array, so each
  buffer at the first pipeline's entry is the reference's stage of the edge index.
-/
import proofs.«152321_j62208306315756_1_alg».proof.Proof.Gen.KernelIdeal.Frame
import proofs.«152321_j62208306315756_1_alg».proof.Proof.RefRead

set_option maxRecDepth 16384

noncomputable section

namespace Cert.KernelIdeal.Prefix

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The sources with self loops at the first pipeline's entry. -/
theorem src_3 : W3 m ρ c (Proc.devRef .tc main_v5)
    = Cert.ReferenceIdeal.ReadP.val_main_v6 (F := F) (m ((c : Thread nD τ).loc main_arg1)) := by
  dsimp only [W3, W2, W1, hostOps0, hostOps0_1, hostOps0_2]
  after_results
  rfl

/-- The destinations with self loops at the first pipeline's entry. -/
theorem dst_3 : W3 m ρ c (Proc.devRef .tc main_v6)
    = Cert.ReferenceIdeal.ReadP.val_main_v7 (F := F) (m ((c : Thread nD τ).loc main_arg1)) := by
  dsimp only [W3, W2, W1, hostOps0, hostOps0_1, hostOps0_2]
  after_results
  rfl

/-- The per-edge normalisation at the first pipeline's entry. -/
theorem norm_3 : W3 m ρ c (Proc.devRef .tc main_v31)
    = Cert.ReferenceIdeal.ReadP.val_main_v32 (F := F) (m ((c : Thread nD τ).loc main_arg1)) := by
  dsimp only [W3, W2, W1, hostOps0, hostOps0_1, hostOps0_2]
  after_results_simp
  rfl

end Cert.KernelIdeal.Prefix

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.Proj1.lean ====
/-
  The first projection, x · W1, as one array.

  The pipeline cuts the 50000 rows into ten tiles of 5000; at tile t the body multiplies rows
  [5000·t, 5000·t + 5000) of x by the whole of W1 (both narrowed to bf16 on the way in, which changes nothing over
  the extended reals) into the zero accumulator and stores the 5000×100 product as rows [5000·t, 5000·t + 5000)
  of the output. Entry (p, q) of tile t's product is ∑ₖ x(5000·t + p, k) · W1(k, q): exactly entry
  (5000·t + p, q) of the whole product. The ten tiles cover the output, so after the pipeline the output array is
  the whole product of the two arrays the region found.
-/
import proofs.«152321_j62208306315756_1_alg».proof.Proof.Gen.KernelIdeal.Frame
import proofs.«152321_j62208306315756_1_alg».proof.Proof.LibPlainDot
import Idealize.ShloMosaic.Lib.Pipeline.Value
import Idealize.ShloMosaic.Lib.ValueIdx

set_option maxRecDepth 16384

noncomputable section

open scoped BigOperators

namespace Cert.KernelIdeal.Proj1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The whole product of a 50000×128 array by a 128×100 array (the host's `dot_general`, no batch axis). -/
abbrev prod (A : FVec Ideal S50000x128 .f32) (B : FVec Ideal S128x100 .f32) : FVec Ideal S50000x100 .f32 :=
  FloatOps.dotGeneral (DotDims.plain 50000 128 100) none .single A B

/-- One tile: if the body's first block is rows [r, r + 5000) of A and its second block is B, its payload at
    (p, q) is the whole product's entry (r + p, q). -/
theorem tile_apply (A : FVec Ideal S50000x128 .f32) (B : FVec Ideal S128x100 .f32)
    (x0 : Vec Ideal S5000x128 .f32) (x1 : Vec Ideal S128x100 .f32) (r : Nat) (hr : r + 5000 ≤ 50000)
    (h0 : ∀ (p : Fin 5000) (k : Fin 128), x0 (ix2 p k) = A (ix2 ⟨r + p.val, by omega⟩ k))
    (h1 : ∀ (k : Fin 128) (q : Fin 100), x1 (ix2 k q) = B (ix2 k q))
    (p : Fin 5000) (q : Fin 100) :
    k0_pay1 (F := Ideal) x0 x1 (ix2 p q) = prod A B (ix2 ⟨r + p.val, by omega⟩ q) := by
  unfold k0_pay1
  refine (Cert.PlainDot.matmul_zero_apply (m := 5000) (k := 128) (n := 100)
    dot_S5000x128_S128x100_S5000x100_1_0_0_1_n_n rfl none _ _ p q).trans ?_
  refine Eq.trans ?_ (Cert.PlainDot.dotGeneral_apply (m := 50000) (k := 128) (n := 100)
    (DotDims.plain 50000 128 100) rfl none .single A B ⟨r + p.val, by omega⟩ q).symm
  refine Finset.sum_congr rfl fun k _ => ?_
  show x0 (ix2 p k) * x1 (ix2 k q) = _
  rw [h0 p k, h1 k q]

/-! ## From the tiles to the array -/

variable (V : (c : Dev nD) → (b : Ref sig .tc) → Buf (Elt Ideal) ((c : Thread nD τ).loc b))

theorem origin : (![0, 0] : Fin 2 → Nat) = fun _ => 0 := funext fun a => by fin_cases a <;> rfl

/-- The index maps over the ten grid points: the x tile moves with the output tile along the rows and sits at
    column block 0; W1 is always its one block; the output's row block is at most 9, its column block 0. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every one of the ten row blocks is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is tile `t` of the whole product of the two arrays the region found. -/
theorem flushed_eq (c : Dev nD) (t : Fin cfg0.N) :
    (dat0 V c).flushed 2 t
      = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x100) origin]
  obtain ⟨e0, e1, e2, e3, e4, e5⟩ := index_facts t
  funext j
  obtain ⟨p, q, rfl⟩ : ∃ (p : Fin 5000) (q : Fin 100), j = ix2 p q := ⟨j 0, j 1, eq_ix2 j⟩
  have hout : ((cfg0.win 2).blk t).view.emb (ix2 p q)
      = (ix2 (⟨win0_2.index t (0 : Fin 2) * 5000 + p.val, by omega⟩ : Fin 50000) q : S50000x100.Idx) := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 100 + 1 * q.val = q.val; omega
  show k0_pay1 (iblk0 V c 0 t) (iblk0 V c 1 t) (ix2 p q)
    = prod (V c main_arg0) (V c main_arg3) (((cfg0.win 2).blk t).view.emb (ix2 p q))
  rw [hout]
  refine tile_apply (V c main_arg0) (V c main_arg3) (iblk0 V c 0 t) (iblk0 V c 1 t)
    (win0_2.index t (0 : Fin 2) * 5000) (by omega) (fun p' k => ?_) (fun k q' => ?_) p q
  · have h : ((cfg0.win 0).blk t).view.emb (ix2 p' k)
        = (ix2 (⟨win0_2.index t (0 : Fin 2) * 5000 + p'.val, by omega⟩ : Fin 50000) k : S50000x128.Idx) := by
      funext a; apply Fin.ext
      match a with
      | ⟨0, _⟩ => show win0_0.index t (0 : Fin 2) * 5000 + 1 * p'.val = win0_2.index t (0 : Fin 2) * 5000 + p'.val; omega
      | ⟨1, _⟩ => show win0_0.index t (1 : Fin 2) * 128 + 1 * k.val = k.val; omega
    show V c main_arg0 (((cfg0.win 0).blk t).view.emb (ix2 p' k)) = _
    rw [h]
  · have h : ((cfg0.win 1).blk t).view.emb (ix2 k q') = (ix2 k q' : S128x100.Idx) := by
      funext a; apply Fin.ext
      match a with
      | ⟨0, _⟩ => show win0_1.index t (0 : Fin 2) * 128 + 1 * k.val = k.val; omega
      | ⟨1, _⟩ => show win0_1.index t (1 : Fin 2) * 100 + 1 * q'.val = q'.val; omega
    show V c main_arg3 (((cfg0.win 1).blk t).view.emb (ix2 k q')) = _
    rw [h]

/-- An index of the output is in point `t`'s tile iff each coordinate is in the tile's range on its axis. -/
theorem mem_tile (t : Fin cfg0.N) (i : S50000x100.Idx) :
    i ∈ ((cfg0.win 2).blk t).view.set ↔ ∀ a : Fin 2, win0_2.index t a * S5000x100.size a ≤ (i a).val
      ∧ (i a).val < win0_2.index t a * S5000x100.size a + S5000x100.size a := by
  show i ∈ ((View.whole main_v32).slice (win0_2.rect t)).set ↔ _
  rw [View.set_slice_whole, Rect.mem_set_unit]
  exact Iff.rfl

/-- The ten tiles cover the output: row r lies in the tile of the point whose row block is r / 5000. -/
theorem cover (i : S50000x100.Idx) :
    ∃ t : Fin cfg0.N, (cfg0.win 2).flush t = true ∧ i ∈ ((cfg0.win 2).blk t).view.set := by
  have hi0 : (i 0).val < 50000 := (i 0).isLt
  have hi1 : (i 1).val < 100 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 100 ≤ (i 1).val ∧ (i 1).val < win0_2.index t (1 : Fin 2) * 100 + 100; omega

/-- After the pipeline the output array is the whole product of the two arrays the region found. -/
theorem final (c : Dev nD) :
    (dat0 V c).arrAt 2 cfg0.N = prod (V c main_arg0) (V c main_arg3) :=
  (dat0 V c).arrAt_eq_of_cover 2 (prod (V c main_arg0) (V c main_arg3)) (fun t _ => flushed_eq V c t) cover

end Cert.KernelIdeal.Proj1

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.Act.lean ====
/-
  The bias and the tanh between the two layers, as one array.

  The pipeline cuts the 50000 rows of the aggregated first layer into ten tiles of 5000; at tile t the body adds
  the bias row (a 1×100 array, the same block at every point, copied to each of the tile's rows) to rows
  [5000·t, 5000·t + 5000) and applies tanh, storing the result as the same rows of the output. Entry (p, q) of
  tile t is tanh(a(5000·t + p, q) + b(0, q)): entry (5000·t + p, q) of tanh(a + b copied to every row), which is
  how the host spells the same layer. The ten tiles cover the output.
-/
import proofs.«152321_j62208306315756_1_alg».proof.Proof.Gen.KernelIdeal.Frame
import proofs.«152321_j62208306315756_1_alg».proof.Proof.LibRowVector
import proofs.«152321_j62208306315756_1_alg».proof.Proof.LibRowInDim
import Idealize.ShloMosaic.Lib.Pipeline.Value
import Idealize.ShloMosaic.Lib.ValueIdx

set_option maxRecDepth 16384

noncomputable section

namespace Cert.KernelIdeal.Act

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- tanh of a 50000×100 array plus a 1×100 row copied to every row, in the host's spelling. -/
abbrev act (A : FVec Ideal S50000x100 .f32) (b : FVec Ideal S1x100 .f32) : FVec Ideal S50000x100 .f32 :=
  Host.tanh (addf A (broadcastInDim S50000x100 ![0, 1] bcast_S1x100_S50000x100_0_1 b))

/-- One tile: if the body's first block is rows [r, r + 5000) of A and its second block is the row b, its payload
    at (p, q) is tanh(A(r + p, q) + b(0, q)), the whole layer's entry (r + p, q). -/
theorem tile_apply (A : FVec Ideal S50000x100 .f32) (b : FVec Ideal S1x100 .f32)
    (x0 : Vec Ideal S5000x100 .f32) (x1 : Vec Ideal S1x100 .f32) (r : Nat) (hr : r + 5000 ≤ 50000)
    (h0 : ∀ (p : Fin 5000) (q : Fin 100), x0 (ix2 p q) = A (ix2 ⟨r + p.val, by omega⟩ q))
    (h1 : ∀ (q : Fin 100), x1 (ix2 0 q) = b (ix2 0 q))
    (p : Fin 5000) (q : Fin 100) :
    k1_pay1 (F := Ideal) x0 x1 (ix2 p q) = act A b (ix2 ⟨r + p.val, by omega⟩ q) := by
  unfold k1_pay1
  simp only [shapeCast_self]
  show Ideal.tanh (x0 (ix2 p q) + broadcastTo S5000x100 x1 broadcasts_S1x100_S5000x100 (ix2 p q))
    = Ideal.tanh (A (ix2 ⟨r + p.val, by omega⟩ q)
        + broadcastInDim S50000x100 ![0, 1] bcast_S1x100_S50000x100_0_1 b (ix2 ⟨r + p.val, by omega⟩ q))
  rw [Cert.RowVector.broadcastTo_row (R := 5000) (n := 100) (by decide) x1 broadcasts_S1x100_S5000x100 p q,
    Cert.RowInDim.broadcastInDim_rows (R := 50000) (n := 100) (by decide) b bcast_S1x100_S50000x100_0_1
      ⟨r + p.val, by omega⟩ q, h0 p q, h1 q]

/-! ## From the tiles to the array -/

variable (V : (c : Dev nD) → (b : Ref sig .tc) → Buf (Elt Ideal) ((c : Thread nD τ).loc b))

theorem origin : (![0, 0] : Fin 2 → Nat) = fun _ => 0 := funext fun a => by fin_cases a <;> rfl

/-- The index maps over the ten grid points: the input tile moves with the output tile along the rows and sits at
    column block 0; the bias row is always its one block; the output's row block is at most 9, its column block 0. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 9
    ∧ win1_2.index t (1 : Fin 2) = 0 :=
  (by decide +kernel : ∀ t : Fin grid1.N, _)

/-- Every one of the ten row blocks is some point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is tile `t` of the whole layer of the two arrays the region found. -/
theorem flushed_eq (c : Dev nD) (t : Fin cfg1.N) :
    (dat1 V c).flushed 2 t
      = ((cfg1.win 2).blk t).view.read (Elt Ideal) (act (V c main_v45) (V c main_v46)) := by
  show (cfg1.win 2).cut (grid1.coords t) ((dat1 V c).after 2 t) = _
  rw [after1_2]
  unfold out1_2
  rw [View.canon_unit_zero origin]
  simp only [View.ld_unit_zero (S := S5000x100) origin, View.ld_unit_zero (S := S1x100) origin]
  obtain ⟨e0, e1, e2, e3, e4, e5⟩ := index_facts t
  funext j
  obtain ⟨p, q, rfl⟩ : ∃ (p : Fin 5000) (q : Fin 100), j = ix2 p q := ⟨j 0, j 1, eq_ix2 j⟩
  have hout : ((cfg1.win 2).blk t).view.emb (ix2 p q)
      = (ix2 (⟨win1_2.index t (0 : Fin 2) * 5000 + p.val, by omega⟩ : Fin 50000) q : S50000x100.Idx) := by
    funext a; apply Fin.ext
    match a with
    | ⟨0, _⟩ => show win1_2.index t (0 : Fin 2) * 5000 + 1 * p.val = win1_2.index t (0 : Fin 2) * 5000 + p.val; omega
    | ⟨1, _⟩ => show win1_2.index t (1 : Fin 2) * 100 + 1 * q.val = q.val; omega
  show k1_pay1 (iblk1 V c 0 t) (iblk1 V c 1 t) (ix2 p q)
    = act (V c main_v45) (V c main_v46) (((cfg1.win 2).blk t).view.emb (ix2 p q))
  rw [hout]
  refine tile_apply (V c main_v45) (V c main_v46) (iblk1 V c 0 t) (iblk1 V c 1 t)
    (win1_2.index t (0 : Fin 2) * 5000) (by omega) (fun p' q' => ?_) (fun q' => ?_) p q
  · have h : ((cfg1.win 0).blk t).view.emb (ix2 p' q')
        = (ix2 (⟨win1_2.index t (0 : Fin 2) * 5000 + p'.val, by omega⟩ : Fin 50000) q' : S50000x100.Idx) := by
      funext a; apply Fin.ext
      match a with
      | ⟨0, _⟩ => show win1_0.index t (0 : Fin 2) * 5000 + 1 * p'.val = win1_2.index t (0 : Fin 2) * 5000 + p'.val; omega
      | ⟨1, _⟩ => show win1_0.index t (1 : Fin 2) * 100 + 1 * q'.val = q'.val; omega
    show V c main_v45 (((cfg1.win 0).blk t).view.emb (ix2 p' q')) = _
    rw [h]
  · have h : ((cfg1.win 1).blk t).view.emb (ix2 (0 : Fin 1) q') = (ix2 (0 : Fin 1) q' : S1x100.Idx) := by
      funext a; apply Fin.ext
      match a with
      | ⟨0, _⟩ => show win1_1.index t (0 : Fin 2) * 1 + 1 * 0 = 0; omega
      | ⟨1, _⟩ => show win1_1.index t (1 : Fin 2) * 100 + 1 * q'.val = q'.val; omega
    show V c main_v46 (((cfg1.win 1).blk t).view.emb (ix2 (0 : Fin 1) q')) = _
    rw [h]

/-- An index of the output is in point `t`'s tile iff each coordinate is in the tile's range on its axis. -/
theorem mem_tile (t : Fin cfg1.N) (i : S50000x100.Idx) :
    i ∈ ((cfg1.win 2).blk t).view.set ↔ ∀ a : Fin 2, win1_2.index t a * S5000x100.size a ≤ (i a).val
      ∧ (i a).val < win1_2.index t a * S5000x100.size a + S5000x100.size a := by
  show i ∈ ((View.whole main_v47).slice (win1_2.rect t)).set ↔ _
  rw [View.set_slice_whole, Rect.mem_set_unit]
  exact Iff.rfl

/-- The ten tiles cover the output: row r lies in the tile of the point whose row block is r / 5000. -/
theorem cover (i : S50000x100.Idx) :
    ∃ t : Fin cfg1.N, (cfg1.win 2).flush t = true ∧ i ∈ ((cfg1.win 2).blk t).view.set := by
  have hi0 : (i 0).val < 50000 := (i 0).isLt
  have hi1 : (i 1).val < 100 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_tile]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 100 ≤ (i 1).val ∧ (i 1).val < win1_2.index t (1 : Fin 2) * 100 + 100; omega

/-- After the pipeline the output array is the whole layer of the two arrays the region found. -/
theorem final (c : Dev nD) :
    (dat1 V c).arrAt 2 cfg1.N = act (V c main_v45) (V c main_v46) :=
  (dat1 V c).arrAt_eq_of_cover 2 (act (V c main_v45) (V c main_v46)) (fun t _ => flushed_eq V c t) cover

end Cert.KernelIdeal.Act

end
-- ==== Proof.Proj2.lean ====
/-
  The second projection, h · W2, as one array (h the activated first layer, 50000×100).

  As for the first projection the pipeline cuts the 50000 rows into ten tiles of 5000; at tile t the body
  multiplies rows [5000·t, 5000·t + 5000) of h by the whole of W2 (both narrowed to bf16 on the way in, the
  identity over the extended reals) into the zero accumulator and stores the 5000×100 product as the same rows of
  the output. Entry (p, q) of tile t's product is ∑ₖ h(5000·t + p, k) · W2(k, q), entry (5000·t + p, q) of the
  whole product, and the ten tiles cover the output.
-/
import proofs.«152321_j62208306315756_1_alg».proof.Proof.Gen.KernelIdeal.Frame
import proofs.«152321_j62208306315756_1_alg».proof.Proof.LibPlainDot
import Idealize.ShloMosaic.Lib.Pipeline.Value
import Idealize.ShloMosaic.Lib.ValueIdx

set_option maxRecDepth 16384

noncomputable section

open scoped BigOperators

namespace Cert.KernelIdeal.Proj2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The whole product of a 50000×100 array by a 100×100 array (the host's `dot_general`, no batch axis). -/
abbrev prod (A : FVec Ideal S50000x100 .f32) (B : FVec Ideal S100x100 .f32) : FVec Ideal S50000x100 .f32 :=
  FloatOps.dotGeneral (DotDims.plain 50000 100 100) none .single A B

/-- One tile: if the body's first block is rows [r, r + 5000) of A and its second block is B, its payload at
    (p, q) is the whole product's entry (r + p, q) (the body's reshape of its first block to its own shape
    changes nothing). -/
theorem tile_apply (A : FVec Ideal S50000x100 .f32) (B : FVec Ideal S100x100 .f32)
    (x0 : Vec Ideal S5000x100 .f32) (x1 : Vec Ideal S100x100 .f32) (r : Nat) (hr : r + 5000 ≤ 50000)
    (h0 : ∀ (p : Fin 5000) (k : Fin 100), x0 (ix2 p k) = A (ix2 ⟨r + p.val, by omega⟩ k))
    (h1 : ∀ (k : Fin 100) (q : Fin 100), x1 (ix2 k q) = B (ix2 k q))
    (p : Fin 5000) (q : Fin 100) :
    k2_pay1 (F := Ideal) x0 x1 (ix2 p q) = prod A B (ix2 ⟨r + p.val, by omega⟩ q) := by
  unfold k2_pay1
  simp only [shapeCast_self]
  refine (Cert.PlainDot.matmul_zero_apply (m := 5000) (k := 100) (n := 100)
    dot_S5000x100_S100x100_S5000x100_1_0_0_1_n_n rfl none _ _ p q).trans ?_
  refine Eq.trans ?_ (Cert.PlainDot.dotGeneral_apply (m := 50000) (k := 100) (n := 100)
    (DotDims.plain 50000 100 100) rfl none .single A B ⟨r + p.val, by omega⟩ q).symm
  refine Finset.sum_congr rfl fun k _ => ?_
  show x0 (ix2 p k) * x1 (ix2 k q) = _
  rw [h0 p k, h1 k q]

/-! ## From the tiles to the array -/

variable (V : (c : Dev nD) → (b : Ref sig .tc) → Buf (Elt Ideal) ((c : Thread nD τ).loc b))

theorem origin : (![0, 0] : Fin 2 → Nat) = fun _ => 0 := funext fun a => by fin_cases a <;> rfl

/-- The index maps over the ten grid points: the tile of activations moves with the output tile along the rows and
    sits at column block 0; W2 is always its one block; the output's row block is at most 9, its column block 0. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 9
    ∧ win2_2.index t (1 : Fin 2) = 0 :=
  (by decide +kernel : ∀ t : Fin grid2.N, _)

/-- Every one of the ten row blocks is some point's. -/
theorem index_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is tile `t` of the whole product of the two arrays the region found. -/
theorem flushed_eq (c : Dev nD) (t : Fin cfg2.N) :
    (dat2 V c).flushed 2 t
      = ((cfg2.win 2).blk t).view.read (Elt Ideal) (prod (V c main_v47) (V c main_arg5)) := by
  show (cfg2.win 2).cut (grid2.coords t) ((dat2 V c).after 2 t) = _
  rw [after2_2]
  unfold out2_2
  rw [View.canon_unit_zero origin]
  simp only [View.ld_unit_zero (S := S5000x100) origin, View.ld_unit_zero (S := S100x100) origin]
  obtain ⟨e0, e1, e2, e3, e4, e5⟩ := index_facts t
  funext j
  obtain ⟨p, q, rfl⟩ : ∃ (p : Fin 5000) (q : Fin 100), j = ix2 p q := ⟨j 0, j 1, eq_ix2 j⟩
  have hout : ((cfg2.win 2).blk t).view.emb (ix2 p q)
      = (ix2 (⟨win2_2.index t (0 : Fin 2) * 5000 + p.val, by omega⟩ : Fin 50000) q : S50000x100.Idx) := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 100 + 1 * q.val = q.val; omega
  show k2_pay1 (iblk2 V c 0 t) (iblk2 V c 1 t) (ix2 p q)
    = prod (V c main_v47) (V c main_arg5) (((cfg2.win 2).blk t).view.emb (ix2 p q))
  rw [hout]
  refine tile_apply (V c main_v47) (V c main_arg5) (iblk2 V c 0 t) (iblk2 V c 1 t)
    (win2_2.index t (0 : Fin 2) * 5000) (by omega) (fun p' k => ?_) (fun k q' => ?_) p q
  · have h : ((cfg2.win 0).blk t).view.emb (ix2 p' k)
        = (ix2 (⟨win2_2.index t (0 : Fin 2) * 5000 + p'.val, by omega⟩ : Fin 50000) k : S50000x100.Idx) := by
      funext a; apply Fin.ext
      match a with
      | ⟨0, _⟩ => show win2_0.index t (0 : Fin 2) * 5000 + 1 * p'.val = win2_2.index t (0 : Fin 2) * 5000 + p'.val; omega
      | ⟨1, _⟩ => show win2_0.index t (1 : Fin 2) * 100 + 1 * k.val = k.val; omega
    show V c main_v47 (((cfg2.win 0).blk t).view.emb (ix2 p' k)) = _
    rw [h]
  · have h : ((cfg2.win 1).blk t).view.emb (ix2 k q') = (ix2 k q' : S100x100.Idx) := by
      funext a; apply Fin.ext
      match a with
      | ⟨0, _⟩ => show win2_1.index t (0 : Fin 2) * 100 + 1 * k.val = k.val; omega
      | ⟨1, _⟩ => show win2_1.index t (1 : Fin 2) * 100 + 1 * q'.val = q'.val; omega
    show V c main_arg5 (((cfg2.win 1).blk t).view.emb (ix2 k q')) = _
    rw [h]

/-- An index of the output is in point `t`'s tile iff each coordinate is in the tile's range on its axis. -/
theorem mem_tile (t : Fin cfg2.N) (i : S50000x100.Idx) :
    i ∈ ((cfg2.win 2).blk t).view.set ↔ ∀ a : Fin 2, win2_2.index t a * S5000x100.size a ≤ (i a).val
      ∧ (i a).val < win2_2.index t a * S5000x100.size a + S5000x100.size a := by
  show i ∈ ((View.whole main_v48).slice (win2_2.rect t)).set ↔ _
  rw [View.set_slice_whole, Rect.mem_set_unit]
  exact Iff.rfl

/-- The ten tiles cover the output: row r lies in the tile of the point whose row block is r / 5000. -/
theorem cover (i : S50000x100.Idx) :
    ∃ t : Fin cfg2.N, (cfg2.win 2).flush t = true ∧ i ∈ ((cfg2.win 2).blk t).view.set := by
  have hi0 : (i 0).val < 50000 := (i 0).isLt
  have hi1 : (i 1).val < 100 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_tile]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 100 ≤ (i 1).val ∧ (i 1).val < win2_2.index t (1 : Fin 2) * 100 + 100; omega

/-- After the pipeline the output array is the whole product of the two arrays the region found. -/
theorem final (c : Dev nD) :
    (dat2 V c).arrAt 2 cfg2.N = prod (V c main_v47) (V c main_arg5) :=
  (dat2 V c).arrAt_eq_of_cover 2 (prod (V c main_v47) (V c main_arg5)) (fun t _ => flushed_eq V c t) cover

end Cert.KernelIdeal.Proj2

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.Chain.lean ====
/-
  The kernel's buffers, boundary by boundary, are the reference's stages.

  Both programs compute the same two-layer graph convolution with mean pooling and a linear head:
    h1 = x · W1;  a1 = Â h1 (gather at the sources, scale by the edge normalisation, scatter-add at the
    destinations);  z = tanh(a1 + b1);  h2 = z · W2;  a2 = Â h2;  per-graph mean of a2 + b2;  times Wlin, plus blin.
  The reference does all of it on the host. The kernel does the two projections and the bias-and-tanh in
  row-tiled pipelines, and everything else on the host with the very operations of the reference. So, walking
  the kernel's boundaries in order:
  * after the first pipeline its output is the whole product x · W1 (the tiles cover the rows), the reference's
    first `dot_general`;
  * the host aggregation applies the reference's operations to it and to the edge lists and normalisation
    computed before, all unchanged by the pipeline;
  * the bias reaches the second pipeline reshaped to a 1×100 row, where the reference broadcasts it along axis 1
    into a 1×100 row: one array; after the pipeline its output is tanh(a1 + b1 on every row);
  * after the third pipeline its output is the whole product z · W2, the reference's second `dot_general`;
  * the host tail applies the reference's remaining operations; where the reference computes the edge lists and
    the normalisation a second time, the kernel reads the first computation: the same operations on the same
    array, so the same values.
-/
import proofs.«152321_j62208306315756_1_alg».proof.Proof.Gen.KernelIdeal.Frame
import proofs.«152321_j62208306315756_1_alg».proof.Proof.RefRead
import proofs.«152321_j62208306315756_1_alg».proof.Proof.Carry
import proofs.«152321_j62208306315756_1_alg».proof.Proof.Prefix
import proofs.«152321_j62208306315756_1_alg».proof.Proof.Proj1
import proofs.«152321_j62208306315756_1_alg».proof.Proof.Act
import proofs.«152321_j62208306315756_1_alg».proof.Proof.Proj2
import proofs.«152321_j62208306315756_1_alg».proof.Proof.LibRowOfVector

set_option maxRecDepth 16384

noncomputable section

namespace Cert.KernelIdeal.Chain

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false

local notation "x₀" => m ((c : Thread nD τ).loc main_arg0)
local notation "x₁" => m ((c : Thread nD τ).loc main_arg1)
local notation "x₂" => m ((c : Thread nD τ).loc main_arg2)
local notation "x₃" => m ((c : Thread nD τ).loc main_arg3)
local notation "x₄" => m ((c : Thread nD τ).loc main_arg4)
local notation "x₅" => m ((c : Thread nD τ).loc main_arg5)
local notation "x₆" => m ((c : Thread nD τ).loc main_arg6)
local notation "x₇" => m ((c : Thread nD τ).loc main_arg7)
local notation "x₈" => m ((c : Thread nD τ).loc main_arg8)

/-- After the first pipeline: the whole product x · W1. -/
theorem proj1 : W4 m ρ c (Proc.devRef .tc main_v32) = val_main_v4 (F := Ideal) x₀ x₃ := by
  refine (W4_arr m ρ c 2).trans ((Proj1.final (V3 m ρ) c).trans ?_)
  show Proj1.prod (W3 m ρ c (Proc.devRef .tc main_arg0)) (W3 m ρ c (Proc.devRef .tc main_arg3)) = _
  rw [Carry.x_3 m ρ c, Carry.w1_3 m ρ c]
  rfl

set_option maxHeartbeats 2000000 in
/-- The first aggregation: gather the projected rows at the sources, scale by the edge normalisation,
    scatter-add at the destinations. -/
theorem agg1 : W5 m ρ c (Proc.devRef .tc main_v45) = val_main_v45 (F := Ideal) x₀ x₁ x₃ := by
  dsimp only [W5, hostOps1]
  after_results
  rw [proj1 m ρ c, Carry.src_4 m ρ c, Carry.dst_4 m ρ c, Carry.norm_4 m ρ c, Prefix.src_3 m ρ c, Prefix.dst_3 m ρ c,
    Prefix.norm_3 m ρ c]
  rfl

/-- The first bias as the second pipeline finds it: reshaped to a 1×100 row, which is the reference's broadcast
    of it along axis 1 into a 1×100 row. -/
theorem bias1 : W5 m ρ c (Proc.devRef .tc main_v46) = val_main_v46 (F := Ideal) x₄ := by
  dsimp only [W5, hostOps1]
  after_results
  rw [Carry.b1_4 m ρ c]
  exact Cert.RowOfVector.shapeCast_eq_broadcastInDim (n := 100) (by decide) _ _ _

/-- After the second pipeline: tanh of the aggregated first layer plus its bias on every row. -/
theorem layer1 : W6 m ρ c (Proc.devRef .tc main_v47) = val_main_v49 (F := Ideal) x₀ x₁ x₃ x₄ := by
  refine (W6_arr m ρ c 2).trans ((Act.final (V5 m ρ) c).trans ?_)
  show Act.act (W5 m ρ c (Proc.devRef .tc main_v45)) (W5 m ρ c (Proc.devRef .tc main_v46)) = _
  rw [agg1 m ρ c, bias1 m ρ c]
  rfl

/-- After the third pipeline: the whole product of the activated first layer by W2. -/
theorem proj2 : W7 m ρ c (Proc.devRef .tc main_v48) = val_main_v50 (F := Ideal) x₀ x₁ x₃ x₄ x₅ := by
  refine (W7_arr m ρ c 2).trans ((Proj2.final (V6 m ρ) c).trans ?_)
  show Proj2.prod (W6 m ρ c (Proc.devRef .tc main_v47)) (W6 m ρ c (Proc.devRef .tc main_arg5)) = _
  rw [layer1 m ρ c, Carry.w2_6 m ρ c]
  rfl

/-- The result: the host tail — the second aggregation (reading the edge lists and the normalisation computed
    before the first pipeline, which the reference computes again: the same values), the second bias, the
    per-graph mean and the linear head — applied to the second projection. -/
theorem result : W8 m ρ c (Proc.devRef .tc main_v80)
    = val_main_v110 (F := Ideal) x₀ x₁ x₂ x₃ x₄ x₅ x₆ x₇ x₈ := by
  dsimp only [W8, hostOps3]
  after_results_simp
  rw [proj2 m ρ c, Carry.src_7 m ρ c, Carry.dst_7 m ρ c, Carry.norm_7 m ρ c, Prefix.src_3 m ρ c, Prefix.dst_3 m ρ c,
    Prefix.norm_3 m ρ c, Carry.batch_7 m ρ c, Carry.b2_7 m ρ c, Carry.wlin_7 m ρ c, Carry.blin_7 m ρ c]
  rfl

end Cert.KernelIdeal.Chain

end
-- ==== Proof.lean ====
/-
  The certificate of a two-layer graph convolution with mean pooling and a linear head, the kernel against its
  jnp reference, over the extended reals.

  Both programs compute  out = mean-pool_g( Â (tanh(Â (x · W1) + b1) · W2) + b2 ) · Wlin + blin,  where Â gathers
  rows at the edges' sources, scales them by the symmetric normalisation 1/√(deg(s) · deg(d)) and scatter-adds
  them at the destinations (self loops included). The kernel's two projections and its bias-and-tanh run as
  row-tiled pipelines; at the ideal values a tile of a matrix product is the corresponding rows of the whole
  product (the bf16 narrowing on the way in is the identity, the accumulator starts at zero), a tile of
  tanh(a + b) is the corresponding rows of the whole, and the tiles cover the arrays; every other operation is the
  reference's own host operation on the same values. No law of the extended reals beyond reading both sides at an
  entry is used, so the inputs' finiteness is never opened.

  The three frames: the kernel's two are the generated frame certificates; the reference's is its run with the
  result dropped. The idealization rewrote nothing, so there is nothing to preserve.
-/
import proofs.«152321_j62208306315756_1_alg».proof.Defs
import proofs.«152321_j62208306315756_1_alg».proof.Proof.Gen.Kernel
import proofs.«152321_j62208306315756_1_alg».proof.Proof.Gen.Kernel.Skeleton
import proofs.«152321_j62208306315756_1_alg».proof.Proof.Gen.Kernel.Launch
import proofs.«152321_j62208306315756_1_alg».proof.Proof.Gen.Kernel.Points
import proofs.«152321_j62208306315756_1_alg».proof.Proof.Gen.Kernel.Frame
import proofs.«152321_j62208306315756_1_alg».proof.Proof.Gen.KernelIdeal
import proofs.«152321_j62208306315756_1_alg».proof.Proof.Gen.KernelIdeal.Skeleton
import proofs.«152321_j62208306315756_1_alg».proof.Proof.Gen.KernelIdeal.Launch
import proofs.«152321_j62208306315756_1_alg».proof.Proof.Gen.KernelIdeal.Points
import proofs.«152321_j62208306315756_1_alg».proof.Proof.Gen.KernelIdeal.Frame
import proofs.«152321_j62208306315756_1_alg».proof.Proof.Gen.ReferenceIdeal
import proofs.«152321_j62208306315756_1_alg».proof.Proof.Gen.Pre_finite_inputs
import proofs.«152321_j62208306315756_1_alg».proof.Proof.RefRun
import proofs.«152321_j62208306315756_1_alg».proof.Proof.RefRead
import proofs.«152321_j62208306315756_1_alg».proof.Proof.KernelRun
import proofs.«152321_j62208306315756_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the reference's last stage of the arguments:
    the kernel's last boundary holds it at the result buffer, and the reference's run ends at it by its own
    reading. -/
theorem algebraic : Cert.algebraic_KernelIdeal_ReferenceIdeal := by
  intro m ρ m' ρ' _ hagree
  refine ⟨fun c => Cert.ReferenceIdeal.ReadP.val_main_v110 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result m ρ c), (h c).2⟩)
      (Cert.KernelIdeal.Result.run (F := Ideal) m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v110_eq, (hagree c).1, (hagree c).2.1, (hagree c).2.2.1,
      (hagree c).2.2.2.1, (hagree c).2.2.2.2.1, (hagree c).2.2.2.2.2.1, (hagree c).2.2.2.2.2.2.1,
      (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
